-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S32x128 : Shape := ⟨2, ![32, 128]⟩
abbrev S32 : Shape := ⟨1, ![32]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S32x128 : S_.BroadcastsInDim S32x128 (![] : Fin 0 → Fin S32x128.rank)
  reducesTo_S32x128_S_d0_1 : S32x128.ReducesTo [0, 1] S_
  bcast_S_S32 : S_.BroadcastsInDim S32 (![] : Fin 0 → Fin S32.rank)
  reducesTo_S32_S_d0 : S32.ReducesTo [0] S_

variable [Facts]

def fn {F : FTy → Type} [FloatOps F] (main_arg0 : FVec F S100000x128 .f32) (main_arg1 : IVec S2x1600000 32) (main_arg2 : FVec F S32x128 .f32) (main_arg3 : FVec F S32 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S32x128 .f32 := Host.absf main_arg2
  let main_cst_0 : FVec F S_ .f32 := constant S_ .f32 0x7F800000#32
  let main_v5 : FVec F S32x128 .f32 := broadcastInDim S32x128 ![] bcast_S_S32x128 main_cst_0
  let main_v6 : IVec S32x128 1 := cmpf .olt main_v4 main_v5
  let main_c_1 : IVec S_ 1 := constantI S_ 1 1#1
  let main_v7 : IVec S_ 1 := (fun x v => Host.reduce IntOp.andi x v reducesTo_S32x128_S_d0_1 h_S_) main_v6 main_c_1
  let main_v8 : IVec S_ 1 := andi main_v3 main_v7
  let main_v9 : FVec F S32 .f32 := Host.absf main_arg3
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  main_v13
-- ==== Kernel.lean ====
abbrev S100000x128 : Shape := ⟨2, ![100000, 128]⟩
abbrev S2x1600000 : Shape := ⟨2, ![2, 1600000]⟩
abbrev S32x128 : Shape := ⟨2, ![32, 128]⟩
abbrev S32 : Shape := ⟨1, ![32]⟩
abbrev S1x1600000 : Shape := ⟨2, ![1, 1600000]⟩
abbrev S1600000 : Shape := ⟨1, ![1600000]⟩
abbrev S100000x32 : Shape := ⟨2, ![100000, 32]⟩
abbrev S10000x128 : Shape := ⟨2, ![10000, 128]⟩
abbrev S10000x32 : Shape := ⟨2, ![10000, 32]⟩
abbrev S_ : Shape := ⟨0, ![]⟩
abbrev S1600000x1 : Shape := ⟨2, ![1600000, 1]⟩
abbrev S1600000x32 : Shape := ⟨2, ![1600000, 32]⟩
abbrev S1x32 : Shape := ⟨2, ![1, 32]⟩
abbrev S5000x32 : Shape := ⟨2, ![5000, 32]⟩

abbrev nBuf : Space → Nat
  | .hbm => 24
  | .vmem => 12
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S32x128, .f32⟩
  | .hbm, ⟨3, _⟩ => ⟨S32, .f32⟩
  | .hbm, ⟨4, _⟩ => ⟨S1x1600000, .i32⟩
  | .hbm, ⟨5, _⟩ => ⟨S1600000, .i32⟩
  | .hbm, ⟨6, _⟩ => ⟨S1x1600000, .i32⟩
  | .hbm, ⟨7, _⟩ => ⟨S1600000, .i32⟩
  | .hbm, ⟨8, _⟩ => ⟨S100000x32, .f32⟩
  | .hbm, ⟨9, _⟩ => ⟨S_, .i32⟩
  | .hbm, ⟨10, _⟩ => ⟨S1600000, .i32⟩
  | .hbm, ⟨11, _⟩ => ⟨S1600000, .i1⟩
  | .hbm, ⟨12, _⟩ => ⟨S_, .i32⟩
  | .hbm, ⟨13, _⟩ => ⟨S1600000, .i32⟩
  | .hbm, ⟨14, _⟩ => ⟨S1600000, .i32⟩
  | .hbm, ⟨15, _⟩ => ⟨S1600000, .i32⟩
  | .hbm, ⟨16, _⟩ => ⟨S1600000x1, .i32⟩
  | .hbm, ⟨17, _⟩ => ⟨S1600000x32, .f32⟩
  | .hbm, ⟨18, _⟩ => ⟨S_, .f32⟩
  | .hbm, ⟨19, _⟩ => ⟨S100000x32, .f32⟩
  | .hbm, ⟨20, _⟩ => ⟨S1600000x1, .i32⟩
  | .hbm, ⟨21, _⟩ => ⟨S100000x32, .f32⟩
  | .hbm, ⟨22, _⟩ => ⟨S1x32, .f32⟩
  | .hbm, ⟨23, _⟩ => ⟨S100000x32, .f32⟩
  | .local _ .vmem, ⟨0, _⟩ => ⟨S10000x128, .f32⟩
  | .local _ .vmem, ⟨1, _⟩ => ⟨S10000x128, .f32⟩
  | .local _ .vmem, ⟨2, _⟩ => ⟨S32x128, .f32⟩
  | .local _ .vmem, ⟨3, _⟩ => ⟨S10000x32, .f32⟩
  | .local _ .vmem, ⟨4, _⟩ => ⟨S10000x32, .f32⟩
  | .local _ .vmem, ⟨5, _⟩ => ⟨S5000x32, .f32⟩
  | .local _ .vmem, ⟨6, _⟩ => ⟨S5000x32, .f32⟩
  | .local _ .vmem, ⟨7, _⟩ => ⟨S5000x32, .f32⟩
  | .local _ .vmem, ⟨8, _⟩ => ⟨S5000x32, .f32⟩
  | .local _ .vmem, ⟨9, _⟩ => ⟨S1x32, .f32⟩
  | .local _ .vmem, ⟨10, _⟩ => ⟨S5000x32, .f32⟩
  | .local _ .vmem, ⟨11, _⟩ => ⟨S5000x32, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_v5 : Ref sig .tc := ⟨.hbm, 10, rfl⟩
abbrev main_v6 : Ref sig .tc := ⟨.hbm, 11, rfl⟩
abbrev main_c_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x32 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S32x128_S32x128_0_0 : ∀ a, (![0, 0] : Fin 2 → Nat) a + S32x128.size a ≤ S32x128.size a
  h_S32x128 : 0 < S32x128.numel
  inb_S10000x32_S10000x32_0_0 : ∀ a, (![0, 0] : Fin 2 → Nat) a + S10000x32.size a ≤ S10000x32.size a
  h_S10000x32 : 0 < S10000x32.numel
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x32 : S_.BroadcastsInDim S100000x32 (![] : Fin 0 → Fin S100000x32.rank)
  shapeCasts_S32_S1x32 : S32.ShapeCasts S1x32
  inb_S5000x32_S5000x32_0_0 : ∀ a, (![0, 0] : Fin 2 → Nat) a + S5000x32.size a ≤ S5000x32.size a
  h_S5000x32 : 0 < S5000x32.numel
  shapeCasts_S5000x32_S5000x32 : S5000x32.ShapeCasts S5000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  dot_S10000x128_S32x128_S10000x32_1_1_0_0_n_n_wf : DotDims.WF S10000x128 S32x128 S10000x32 [1] [1] [0] [0] [] []
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x128.size a ≤ S32x128.size a
  hwx0_1 : ∀ i : grid0.Coords, EltTy.bits .f32 = 32 ∨ (Rect.block (s := S32x128) S32x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x32.size a ≤ S100000x32.size a
  hwx0_2 : ∀ i : grid0.Coords, EltTy.bits .f32 = 32 ∨ (Rect.block (s := S100000x32) S10000x32.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x32.size a ≤ S100000x32.size a
  hwx1_0 : ∀ i : grid1.Coords, EltTy.bits .f32 = 32 ∨ (Rect.block (s := S100000x32) S5000x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x32.size a ≤ S100000x32.size a
  hwx1_1 : ∀ i : grid1.Coords, EltTy.bits .f32 = 32 ∨ (Rect.block (s := S100000x32) S5000x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x32.size a ≤ S1x32.size a
  hwx1_2 : ∀ i : grid1.Coords, EltTy.bits .f32 = 32 ∨ (Rect.block (s := S1x32) S1x32.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x32.size a ≤ S100000x32.size a
  hwx1_3 : ∀ i : grid1.Coords, EltTy.bits .f32 = 32 ∨ (Rect.block (s := S100000x32) S5000x32.size (cc1_transform_3 i) (hinb1_3 i)).WholeWords (EltTy.packing .f32)

variable [Facts₀]

def dot_S10000x128_S32x128_S10000x32_1_1_0_0_n_n : DotDims S10000x128 S32x128 S10000x32 where
  lhsContracting := [1]
  rhsContracting := [1]
  lhsNonContracting := [0]
  rhsNonContracting := [0]
  lhsBatch := []
  rhsBatch := []
  wf := dot_S10000x128_S32x128_S10000x32_1_1_0_0_n_n_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S32x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S10000x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v4) S5000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S5000x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v15) S1x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v16) S5000x32.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S32x128 : Shape := ⟨2, ![32, 128]⟩
abbrev S32 : Shape := ⟨1, ![32]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S128x32 : Shape := ⟨2, ![128, 32]⟩
abbrev S100000x32 : Shape := ⟨2, ![100000, 32]⟩
abbrev S1x32 : Shape := ⟨2, ![1, 32]⟩

abbrev nBuf : Space → Nat
  | .hbm => 27
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S32x128, .f32⟩
  | .hbm, ⟨3, _⟩ => ⟨S32, .f32⟩
  | .hbm, ⟨4, _⟩ => ⟨S1x1600000, .i32⟩
  | .hbm, ⟨5, _⟩ => ⟨S1600000, .i32⟩
  | .hbm, ⟨6, _⟩ => ⟨S1x1600000, .i32⟩
  | .hbm, ⟨7, _⟩ => ⟨S1600000, .i32⟩
  | .hbm, ⟨8, _⟩ => ⟨S_, .i32⟩
  | .hbm, ⟨9, _⟩ => ⟨S1600000, .i32⟩
  | .hbm, ⟨10, _⟩ => ⟨S1600000, .i1⟩
  | .hbm, ⟨11, _⟩ => ⟨S_, .i32⟩
  | .hbm, ⟨12, _⟩ => ⟨S1600000, .i32⟩
  | .hbm, ⟨13, _⟩ => ⟨S1600000, .i32⟩
  | .hbm, ⟨14, _⟩ => ⟨S1600000, .i32⟩
  | .hbm, ⟨15, _⟩ => ⟨S1600000x1, .i32⟩
  | .hbm, ⟨16, _⟩ => ⟨S1600000x128, .f32⟩
  | .hbm, ⟨17, _⟩ => ⟨S_, .f32⟩
  | .hbm, ⟨18, _⟩ => ⟨S100000x128, .f32⟩
  | .hbm, ⟨19, _⟩ => ⟨S1600000x1, .i32⟩
  | .hbm, ⟨20, _⟩ => ⟨S100000x128, .f32⟩
  | .hbm, ⟨21, _⟩ => ⟨S100000x128, .f32⟩
  | .hbm, ⟨22, _⟩ => ⟨S128x32, .f32⟩
  | .hbm, ⟨23, _⟩ => ⟨S100000x32, .f32⟩
  | .hbm, ⟨24, _⟩ => ⟨S1x32, .f32⟩
  | .hbm, ⟨25, _⟩ => ⟨S100000x32, .f32⟩
  | .hbm, ⟨26, _⟩ => ⟨S100000x32, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  transposes_S32x128_S128x32_1_0 : S32x128.Transposes [1, 0] S128x32
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x32_S100000x32_1_0_0_1_n_n_wf : DotDims.WF S100000x128 S128x32 S100000x32 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x32_S100000x32_1_0_0_1_n_n : DotDims S100000x128 S128x32 S100000x32 where
  lhsContracting := [1]
  rhsContracting := [0]
  lhsNonContracting := [0]
  rhsNonContracting := [1]
  lhsBatch := []
  rhsBatch := []
  wf := dot_S100000x128_S128x32_S100000x32_1_0_0_1_n_n_wf

class Facts : Prop extends Facts₀ where

variable [Facts]
-- ==== Proof.KernelRun.lean ====
/-
  The kernel's run with its result named.

  The program is two pallas_calls among stretches of host operations. Its execution is a chain of four segments —
  host operations, the projection call, host operations, the combine call — and the contents of the TensorCore's
  buffers at each boundary are a fold from the launch memory: a host stretch applies its operations, a call replaces
  its arrays by what its write-backs leave. Every weakly fair execution terminates with every unscoped buffer at the
  last boundary's contents; read at the result buffer this names the result, and read at an argument it walks back to
  the launch memory.
-/
import proofs.«164265_j71949292143001_2_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the last
    boundary's contents and the argument arrays as launched. -/
theorem run : θ_run defs (onTc (τ := τ) (main (F := F))) ⟨m, fun _ => 0, ρ⟩ (fun r => ∀ c : Dev nD,
      r.2.mem ((c.tc : Thread nD τ).loc main_v16) = W4 m ρ c (Proc.devRef .tc main_v16)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v16 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c)⟩)

end Cert.KernelIdeal.Whole

end
-- ==== Proof.LibDotRows.lean ====
/-
  A reusable general lemma: a matrix product that contracts the COLUMNS of both operands, read at an entry.

  The product of an `n` × `K` matrix `l` with the transpose of an `M` × `K` matrix `r` (`l @ r.T`, a linear layer
  whose weight matrix is stored one row per output feature) pairs row `p` of `l` with row `c` of `r`. Its dimension
  numbers index the sum by the contraction shape's positions; when that shape has the one axis of extent `K` and the
  two operand indices at output entry (p, c) and contraction position `k` are (p, k) and (c, k) — four coordinate
  facts a program's literal dimension numbers decide — the sum is `∑ k : Fin K, l (p, k) · r (c, k)`. On the extended
  reals this reads a vector unit's matrix product into a zero accumulator. Stated at any extents.
-/
import Idealize.ShloMosaic.Lib.ValueIdx
import Idealize.ShloMosaic.PureOps.Ideal.Laws

noncomputable section

open scoped BigOperators

namespace Idealize.ShloMosaic.DotRows

open Idealize.ShloMosaic Idealize.ShloMosaic.ValueIdx

/-- The contraction's sum, re-indexed by the one contracted coordinate. -/
theorem sum_contr_eq {n K M : Nat} (D : DotDims (⟨2, ![n, K]⟩ : Shape) (⟨2, ![M, K]⟩ : Shape) (⟨2, ![n, M]⟩ : Shape))
    (hr : D.contr.rank = 1) (hs : D.contr.size ⟨0, by omega⟩ = K)
    (l0 : ∀ (i : (⟨2, ![n, M]⟩ : Shape).Idx) (q : D.contr.Idx), (D.lhsIdx i q 0).val = (i 0).val)
    (l1 : ∀ (i : (⟨2, ![n, M]⟩ : Shape).Idx) (q : D.contr.Idx), (D.lhsIdx i q 1).val = (q ⟨0, by omega⟩).val)
    (r0 : ∀ (i : (⟨2, ![n, M]⟩ : Shape).Idx) (q : D.contr.Idx), (D.rhsIdx i q 0).val = (i 1).val)
    (r1 : ∀ (i : (⟨2, ![n, M]⟩ : Shape).Idx) (q : D.contr.Idx), (D.rhsIdx i q 1).val = (q ⟨0, by omega⟩).val)
    (l : (⟨2, ![n, K]⟩ : Shape).Idx → EReal) (r : (⟨2, ![M, K]⟩ : Shape).Idx → EReal) (p : Fin n) (c : Fin M) :
    ∑ q : D.contr.Idx, l (D.lhsIdx (ix2 p c) q) * r (D.rhsIdx (ix2 p c) q) = ∑ k : Fin K, l (ix2 p k) * r (ix2 c k) := by
  rw [← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact l0 _ _
    | ⟨1, _⟩ => exact (l1 _ _).trans hk)
  have er : D.rhsIdx (ix2 p c) ((contrEquiv1 D K hr hs).symm k) = ix2 c k := funext fun a => Fin.ext (by
    match a with
    | ⟨0, _⟩ => exact r0 _ _
    | ⟨1, _⟩ => exact (r1 _ _).trans hk)
  rw [el, er]

/-- A vector unit's matrix product into the zero accumulator, at entry (p, c): `∑ k, lhs (p, k) · rhs (c, k)`. -/
theorem matmul_zero_apply {n K M : Nat} {φ₁ φ₂ : FTy}
    (D : DotDims (⟨2, ![n, K]⟩ : Shape) (⟨2, ![M, K]⟩ : Shape) (⟨2, ![n, M]⟩ : Shape))
    (hr : D.contr.rank = 1) (hs : D.contr.size ⟨0, by omega⟩ = K)
    (l0 : ∀ (i : (⟨2, ![n, M]⟩ : Shape).Idx) (q : D.contr.Idx), (D.lhsIdx i q 0).val = (i 0).val)
    (l1 : ∀ (i : (⟨2, ![n, M]⟩ : Shape).Idx) (q : D.contr.Idx), (D.lhsIdx i q 1).val = (q ⟨0, by omega⟩).val)
    (r0 : ∀ (i : (⟨2, ![n, M]⟩ : Shape).Idx) (q : D.contr.Idx), (D.rhsIdx i q 0).val = (i 1).val)
    (r1 : ∀ (i : (⟨2, ![n, M]⟩ : Shape).Idx) (q : D.contr.Idx), (D.rhsIdx i q 1).val = (q ⟨0, by omega⟩).val)
    (prec : Option ContractPrecision) (lhs : FVec Ideal (⟨2, ![n, K]⟩ : Shape) φ₁) (rhs : FVec Ideal (⟨2, ![M, K]⟩ : Shape) φ₂)
    (p : Fin n) (c : Fin M) :
    FloatOps.matmul D prec lhs rhs (constant (⟨2, ![n, M]⟩ : Shape) .f32 0x00000000#32) (ix2 p c)
      = ∑ k : Fin K, (lhs (ix2 p k) : EReal) * (rhs (ix2 c k) : EReal) :=
  (Ideal.matmul_constant_zero_apply D prec lhs rhs (ix2 p c)).trans (sum_contr_eq D hr hs l0 l1 r0 r1 lhs rhs p c)

end Idealize.ShloMosaic.DotRows

end
-- ==== Proof.Aggregate.lean ====
/-
  The law that joins the two sides, on the extended reals with finite entries.

  A node `n` of a graph receives the feature rows of its in-neighbours: edge `e` carries row `s e` and arrives at `n`
  when `L e` holds. One side adds the received rows to the node's own row and then takes the dot product with a weight
  vector `w`; the other takes the dot product of every row with `w` first and adds the received products to the node's
  own. The two agree because the dot product is linear: multiplication distributes over the sum of the node's row and
  the received rows, and the two finite sums (over features and over edges) may be exchanged. Distributivity fails on the
  extended reals at infinite entries, so the entries are assumed real; then both sides are the coercion of one real
  number, and the identity is proved in the reals.
-/
import Idealize.ShloMosaic.PureOps.Ideal

noncomputable section

open scoped BigOperators

namespace Cert.Aggregate

/-- The coercion from the reals to the extended reals commutes with a finite sum. -/
theorem coe_sum {ι : Type*} (s : Finset ι) (f : ι → ℝ) :
    ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- The coercion commutes with a choice between a real number and zero. -/
theorem coe_ite (p : Prop) [Decidable p] (a : ℝ) :
    (((if p then a else 0 : ℝ)) : EReal) = if p then (a : EReal) else 0 := by
  split_ifs <;> simp

/-- In the reals: the dot product of (own row + received rows) is the own product plus the received products. -/
theorem real_dot_add_received {N K E : Nat} (xr : Fin N → Fin K → ℝ) (wr : Fin K → ℝ) (s : Fin E → Fin N)
    (L : Fin E → Prop) [DecidablePred L] (n : Fin N) :
    (∑ k, (xr n k + ∑ e, if L e then xr (s e) k else 0) * wr k)
      = (∑ k, xr n k * wr k) + ∑ e, if L e then ∑ k, xr (s e) k * wr k else 0 := by
  simp only [add_mul, Finset.sum_add_distrib, Finset.sum_mul]
  refine congrArg ((∑ k, xr n k * wr k) + ·) ?_
  rw [Finset.sum_comm]
  refine Finset.sum_congr rfl fun e _ => ?_
  by_cases h : L e <;> simp [h]

/-- THE LAW, on the extended reals with real entries: aggregating the rows and then projecting is projecting every row
    and then aggregating. -/
theorem dot_add_received {N K E : Nat} (x : Fin N → Fin K → EReal) (w : Fin K → EReal) (s : Fin E → Fin N)
    (L : Fin E → Prop) [DecidablePred L] (hx : ∀ n k, ∃ r : ℝ, x n k = (r : EReal))
    (hw : ∀ k, ∃ r : ℝ, w k = (r : EReal)) (n : Fin N) :
    (∑ k, (x n k + ∑ e, if L e then x (s e) k else 0) * w k)
      = (∑ k, x n k * w k) + ∑ e, if L e then ∑ k, x (s e) k * w k else 0 := by
  choose xr hxr using hx
  choose wr hwr using hw
  have hl : (∑ k, (x n k + ∑ e, if L e then x (s e) k else 0) * w k)
      = ((∑ k, (xr n k + ∑ e, if L e then xr (s e) k else 0) * wr k : ℝ) : EReal) := by
    simp only [hxr, hwr, coe_sum, EReal.coe_mul, EReal.coe_add, coe_ite]
  have hr : ((∑ k, x n k * w k) + ∑ e, if L e then ∑ k, x (s e) k * w k else 0)
      = (((∑ k, xr n k * wr k) + ∑ e, if L e then ∑ k, xr (s e) k * wr k else 0 : ℝ) : EReal) := by
    simp only [hxr, hwr, coe_sum, EReal.coe_mul, EReal.coe_add, coe_ite]
  rw [hl, hr, real_dot_add_received]

end Cert.Aggregate

end
-- ==== Proof.Spec.lean ====
/-
  The layer as one function of its arguments, in the two orders the two programs compute it.

  Node features `x : [100000, 128]`, weights `W : [32, 128]` (one row per output feature), bias `b : [32]`, and two
  columns of edge indices `si`, `di : [1600000, 1]`. Edge `e` reads the row `srcRow si e` (its source index read as a
  signed integer and clamped into the table) and arrives at node `n` when its destination index, read signed, is `n`
  (an edge whose destination is no node arrives nowhere). One order projects every row onto the weights first and then
  adds to a node's projection those of the rows it receives; the other adds the received rows to the node's own and
  projects the sum. Both add the bias last. With real entries the two are equal (Aggregate.lean).
-/
import Idealize.ShloMosaic.Lib.ValueIdx
import proofs.«164265_j71949292143001_2_alg».proof.Proof.Aggregate

noncomputable section

open scoped BigOperators

namespace Cert.Layer

open Idealize.ShloMosaic Idealize.ShloMosaic.ValueIdx

abbrev Feat : Shape := ⟨2, ![100000, 128]⟩
abbrev Wgt : Shape := ⟨2, ![32, 128]⟩
abbrev Bias : Shape := ⟨1, ![32]⟩
abbrev Edges : Shape := ⟨2, ![1600000, 1]⟩
abbrev Out : Shape := ⟨2, ![100000, 32]⟩

/-- The row edge `e` reads: its source index, read signed and clamped into `[0, 99999]`. -/
def srcRow (si : IVec Edges 32) (e : Fin 1600000) : Fin 100000 :=
  ⟨min (si (ix2 e (0 : Fin 1))).toInt.toNat (100000 - 1), by omega⟩

/-- Row `n` projected onto weight row `c`. -/
def proj (x : Feat.Idx → EReal) (W : Wgt.Idx → EReal) (n : Fin 100000) (c : Fin 32) : EReal :=
  ∑ k : Fin 128, x (ix2 n k) * W (ix2 c k)

/-- Project every row, then add to node `n`'s projection those of the rows it receives, then the bias. -/
def projectFirst (x : Feat.Idx → EReal) (W : Wgt.Idx → EReal) (b : Bias.Idx → EReal) (si di : IVec Edges 32)
    (n : Fin 100000) (c : Fin 32) : EReal :=
  (proj x W n c + ∑ e : Fin 1600000,
      if (di (ix2 e (0 : Fin 1))).toInt = (n.val : Int) then proj x W (srcRow si e) c else 0) + b (ix1 c)

/-- Add to node `n`'s row the rows it receives, project the sum, then add the bias. -/
def aggregateFirst (x : Feat.Idx → EReal) (W : Wgt.Idx → EReal) (b : Bias.Idx → EReal) (si di : IVec Edges 32)
    (n : Fin 100000) (c : Fin 32) : EReal :=
  (∑ k : Fin 128, (x (ix2 n k) + ∑ e : Fin 1600000,
      if (di (ix2 e (0 : Fin 1))).toInt = (n.val : Int) then x (ix2 (srcRow si e) k) else 0) * W (ix2 c k)) + b (ix1 c)

/-- With real features and weights the two orders agree: the projection is linear. -/
theorem aggregateFirst_eq_projectFirst (x : Feat.Idx → EReal) (W : Wgt.Idx → EReal) (b : Bias.Idx → EReal)
    (si di : IVec Edges 32) (hx : ∀ i, ∃ r : ℝ, x i = (r : EReal)) (hW : ∀ i, ∃ r : ℝ, W i = (r : EReal))
    (n : Fin 100000) (c : Fin 32) :
    aggregateFirst x W b si di n c = projectFirst x W b si di n c := by
  unfold aggregateFirst projectFirst proj
  refine congrArg (· + b (ix1 c)) ?_
  exact Aggregate.dot_add_received (fun n k => x (ix2 n k)) (fun k => W (ix2 c k)) (srcRow si)
    (fun e => (di (ix2 e (0 : Fin 1))).toInt = (n.val : Int)) (fun n k => hx _) (fun k => hW _) n

end Cert.Layer

end
-- ==== Proof.Projection.lean ====
/-
  The projection call's array.

  The first pallas_call walks the node table in ten blocks of 10000 rows. At each block the body multiplies the block
  of features by the whole weight matrix, contracting the 128 feature coordinates of both (the narrowing of the
  operands to a shorter float format is the identity on extended reals, and the accumulator is zero), and writes the
  10000 × 32 block of projections back. Block `t` of every window starts at row `10000·t`, so entry (p, q) of what
  point `t` writes back is the projection of table row `10000·t + p` onto weight row `q`; the ten blocks tile the
  output array, which therefore ends holding the projection of every row.
-/
import proofs.«164265_j71949292143001_2_alg».proof.Proof.Gen.KernelIdeal.Frame
import proofs.«164265_j71949292143001_2_alg».proof.Proof.LibDotRows
import proofs.«164265_j71949292143001_2_alg».proof.Proof.Spec
import Idealize.ShloMosaic.Lib.Pipeline.Value

set_option maxRecDepth 16384

noncomputable section

open scoped BigOperators

namespace Cert.KernelIdeal.Projection

open Cert.KernelIdeal Cert.KernelIdeal.Gen
open Idealize.ShloMosaic Idealize.ShloMosaic.TcCoe Idealize.ShloMosaic.ValueIdx Idealize.SL.Sem
open Idealize.ShloMosaic.Pipeline (Dat Cfg Window)

/-! ## The body at an entry -/

theorem lhs0 (i : S10000x32.Idx) (q : dot_S10000x128_S32x128_S10000x32_1_1_0_0_n_n.contr.Idx) : (dot_S10000x128_S32x128_S10000x32_1_1_0_0_n_n.lhsIdx i q 0).val = (i 0).val := by
  unfold DotDims.lhsIdx
  rw [dif_neg (show ¬(0 : Fin S10000x128.rank) ∈ dot_S10000x128_S32x128_S10000x32_1_1_0_0_n_n.lhsBatch by decide),
    dif_pos (show (0 : Fin S10000x128.rank) ∈ dot_S10000x128_S32x128_S10000x32_1_1_0_0_n_n.lhsNonContracting by decide)]
  rfl
theorem lhs1 (i : S10000x32.Idx) (q : dot_S10000x128_S32x128_S10000x32_1_1_0_0_n_n.contr.Idx) : (dot_S10000x128_S32x128_S10000x32_1_1_0_0_n_n.lhsIdx i q 1).val = (q ⟨0, by decide⟩).val :=
  dot_S10000x128_S32x128_S10000x32_1_1_0_0_n_n.lhsIdx_val_of_single rfl i q
theorem rhs0 (i : S10000x32.Idx) (q : dot_S10000x128_S32x128_S10000x32_1_1_0_0_n_n.contr.Idx) : (dot_S10000x128_S32x128_S10000x32_1_1_0_0_n_n.rhsIdx i q 0).val = (i 1).val := by
  unfold DotDims.rhsIdx
  rw [dif_neg (show ¬(0 : Fin S32x128.rank) ∈ dot_S10000x128_S32x128_S10000x32_1_1_0_0_n_n.rhsBatch by decide),
    dif_pos (show (0 : Fin S32x128.rank) ∈ dot_S10000x128_S32x128_S10000x32_1_1_0_0_n_n.rhsNonContracting by decide)]
  rfl
theorem rhs1 (i : S10000x32.Idx) (q : dot_S10000x128_S32x128_S10000x32_1_1_0_0_n_n.contr.Idx) : (dot_S10000x128_S32x128_S10000x32_1_1_0_0_n_n.rhsIdx i q 1).val = (q ⟨0, by decide⟩).val :=
  dot_S10000x128_S32x128_S10000x32_1_1_0_0_n_n.rhsIdx_val_of_single rfl i q

/-- Entry (p, q) of the body's result: row `p` of the feature block against row `q` of the weights. -/
theorem pay_apply (x0 : Vec Ideal S10000x128 .f32) (x1 : Vec Ideal S32x128 .f32) (p : Fin 10000) (q : Fin 32) :
    k0_pay1 x0 x1 (ix2 p q) = ∑ k : Fin 128, x0 (ix2 p k) * x1 (ix2 q k) := by
  unfold k0_pay1
  exact DotRows.matmul_zero_apply dot_S10000x128_S32x128_S10000x32_1_1_0_0_n_n rfl rfl lhs0 lhs1 rhs0 rhs1 none _ _ p q

/-! ## From blocks to the array -/

variable (V : (c : Dev nD) → (b : Ref sig .tc) → Buf (Elt Ideal) ((c : Thread nD τ).loc b))

theorem hz : (![0, 0] : Fin 2 → Nat) = fun _ => 0 := funext fun a => by fin_cases a <;> rfl

/-- Every row of the table projected onto every weight row. -/
def Y (x : S100000x128.Idx → EReal) (W : S32x128.Idx → EReal) : S100000x32.Idx → EReal :=
  fun i => Layer.proj x W ⟨(i 0).val, (i 0).isLt⟩ ⟨(i 1).val, (i 1).isLt⟩

/-- The printed index maps over the grid: the feature and output windows move one block of rows per point, the
    weights stay. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the projection of the arrays as the call finds them. -/
theorem flushed_eq (c : Dev nD) (t : Fin cfg0.N) :
    (dat0 V c).flushed 2 t = ((cfg0.win 2).blk t).view.read (Elt Ideal) (Y (V c main_arg0) (V c main_arg2)) := by
  show (cfg0.win 2).cut (grid0.coords t) ((dat0 V c).after 2 t) = _
  rw [after0_2]
  unfold out0_2
  rw [View.canon_unit_zero hz]
  simp only [View.ld_unit_zero (S := S10000x128) hz, View.ld_unit_zero (S := S32x128) hz]
  obtain ⟨e0, e1, e2, e3, e4, e5⟩ := idx_facts t
  funext j
  obtain ⟨p, q, rfl⟩ : ∃ (p : Fin 10000) (q : Fin 32), j = ix2 p q := ⟨j 0, j 1, eq_ix2 j⟩
  refine (pay_apply _ _ p q).trans ?_
  show _ = Y (V c main_arg0) (V c main_arg2) (((cfg0.win 2).blk t).view.emb (ix2 p q))
  unfold Y Layer.proj
  refine Finset.sum_congr rfl fun k _ => ?_
  have h0 : ((cfg0.win 0).blk t).view.emb (ix2 p k)
      = ix2 (⟨((((cfg0.win 2).blk t).view.emb (ix2 p q)) 0).val, ((((cfg0.win 2).blk t).view.emb (ix2 p q)) 0).isLt⟩ : Fin 100000) k := by
    funext a; apply Fin.ext
    match a with
    | ⟨0, _⟩ => show win0_0.index t (0 : Fin 2) * 10000 + 1 * p.val = win0_2.index t (0 : Fin 2) * 10000 + 1 * p.val; omega
    | ⟨1, _⟩ => show win0_0.index t (1 : Fin 2) * 128 + 1 * k.val = k.val; omega
  have h1 : ((cfg0.win 1).blk t).view.emb (ix2 q k)
      = ix2 (⟨((((cfg0.win 2).blk t).view.emb (ix2 p q)) 1).val, ((((cfg0.win 2).blk t).view.emb (ix2 p q)) 1).isLt⟩ : Fin 32) k := by
    funext a; apply Fin.ext
    match a with
    | ⟨0, _⟩ => show win0_1.index t (0 : Fin 2) * 32 + 1 * q.val = win0_2.index t (1 : Fin 2) * 32 + 1 * q.val; omega
    | ⟨1, _⟩ => show win0_1.index t (1 : Fin 2) * 128 + 1 * k.val = k.val; omega
  refine congrArg₂ (· * ·) ?_ ?_
  · exact congrArg (V c main_arg0) h0
  · exact congrArg (V c main_arg2) h1

/-- An index of the array is in point `t`'s block iff each coordinate is in the block's range on its axis. -/
theorem mem_blk (t : Fin cfg0.N) (i : S100000x32.Idx) :
    i ∈ ((cfg0.win 2).blk t).view.set ↔ ∀ a : Fin 2, win0_2.index t a * S10000x32.size a ≤ (i a).val
      ∧ (i a).val < win0_2.index t a * S10000x32.size a + S10000x32.size a := by
  show i ∈ ((View.whole main_v4).slice (win0_2.rect t)).set ↔ _
  rw [View.set_slice_whole, Rect.mem_set_unit]
  exact Iff.rfl

/-- The ten blocks tile the array: row `r` is in block `r / 10000`. -/
theorem cover (i : S100000x32.Idx) :
    ∃ t : Fin cfg0.N, (cfg0.win 2).flush t = true ∧ i ∈ ((cfg0.win 2).blk t).view.set := by
  have hi0 : (i 0).val < 100000 := (i 0).isLt
  have hi1 : (i 1).val < 32 := (i 1).isLt
  have hN : cfg0.N = 10 := N_0
  refine ⟨⟨(i 0).val / 10000, by rw [hN]; omega⟩, flush0_2 _, ?_⟩
  rw [mem_blk]
  obtain ⟨e0, e1, e2, e3, e4, e5⟩ := idx_facts ⟨(i 0).val / 10000, by rw [hN]; omega⟩
  intro a
  match a with
  | ⟨0, _⟩ =>
    show win0_2.index _ (0 : Fin 2) * 10000 ≤ (i 0).val ∧ (i 0).val < win0_2.index _ (0 : Fin 2) * 10000 + 10000
    rw [e4]; show (i 0).val / 10000 * 10000 ≤ (i 0).val ∧ (i 0).val < (i 0).val / 10000 * 10000 + 10000; omega
  | ⟨1, _⟩ =>
    show win0_2.index _ (1 : Fin 2) * 32 ≤ (i 1).val ∧ (i 1).val < win0_2.index _ (1 : Fin 2) * 32 + 32
    rw [e5]; omega

/-- The array the call leaves: the projection of every row, of the arrays as the call finds them. -/
theorem final (c : Dev nD) : (dat0 V c).arrAt 2 cfg0.N = Y (V c main_arg0) (V c main_arg2) :=
  (dat0 V c).arrAt_eq_of_cover 2 (Y (V c main_arg0) (V c main_arg2)) (fun t _ => flushed_eq V c t) cover

end Cert.KernelIdeal.Projection

end
-- ==== Proof.Combine.lean ====
/-
  The combine call's array.

  The second pallas_call walks the node table in twenty blocks of 5000 rows. At each block the body adds, entry by
  entry, the block of projections and the block of received projections, and then the bias row spread over the block's
  rows, and writes the 5000 × 32 block back. Block `t` of the three row-blocked windows starts at row `5000·t` and the
  bias window is the whole 1 × 32 row at every point, so entry (p, q) of what point `t` writes back is the sum of the
  two arrays' entries at (5000·t + p, q) plus the bias at q; the twenty blocks tile the output array.
-/
import proofs.«164265_j71949292143001_2_alg».proof.Proof.Gen.KernelIdeal.Frame
import Idealize.ShloMosaic.Lib.Pipeline.Value
import Idealize.ShloMosaic.Lib.ValueIdx

set_option maxRecDepth 16384

noncomputable section

open scoped BigOperators

namespace Cert.KernelIdeal.Combine

open Cert.KernelIdeal Cert.KernelIdeal.Gen
open Idealize.ShloMosaic Idealize.ShloMosaic.TcCoe Idealize.ShloMosaic.ValueIdx Idealize.SL.Sem
open Idealize.ShloMosaic.Pipeline (Dat Cfg Window)

/-! ## The body at an entry -/

/-- Entry (p, q) of the body's result: the two blocks' entries there, plus the bias row's entry in column `q`. -/
theorem pay_apply (x0 x1 : Vec Ideal S5000x32 .f32) (x2 : Vec Ideal S1x32 .f32) (p : Fin 5000) (q : Fin 32) :
    k1_pay1 x0 x1 x2 (ix2 p q) = (x0 (ix2 p q) + x1 (ix2 p q)) + x2 (ix2 (0 : Fin 1) q) := by
  unfold k1_pay1
  simp only [shapeCast_self]
  show (x0 (ix2 p q) + x1 (ix2 p q)) + broadcastTo S5000x32 x2 broadcasts_S1x32_S5000x32 (ix2 p q) = _
  refine congrArg ((x0 (ix2 p q) + x1 (ix2 p q)) + ·) ?_
  exact broadcastTo_apply x2 broadcasts_S1x32_S5000x32 (ix2 p q) (ix2 (0 : Fin 1) q) (fun a => match a with
    | ⟨0, _⟩ => by show 0 = if (1 : Nat) = 1 then 0 else _; rw [if_pos rfl]
    | ⟨1, _⟩ => by show q.val = if (32 : Nat) = 1 then 0 else q.val; rw [if_neg (by decide)])

/-! ## From blocks to the array -/

variable (V : (c : Dev nD) → (b : Ref sig .tc) → Buf (Elt Ideal) ((c : Thread nD τ).loc b))

theorem hz : (![0, 0] : Fin 2 → Nat) = fun _ => 0 := funext fun a => by fin_cases a <;> rfl

/-- Entry by entry: the two arrays' sum plus the bias of the column. -/
def G (y a : S100000x32.Idx → EReal) (b : S1x32.Idx → EReal) : S100000x32.Idx → EReal :=
  fun i => (y i + a i) + b (ix2 (0 : Fin 1) (⟨(i 1).val, (i 1).isLt⟩ : Fin 32))

/-- The printed index maps over the grid: the three row-blocked windows move one block of rows per point, the bias
    row stays. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What point `t` writes back is block `t` of the entrywise sum of the arrays as the call finds them. -/
theorem flushed_eq (c : Dev nD) (t : Fin cfg1.N) :
    (dat1 V c).flushed 3 t
      = ((cfg1.win 3).blk t).view.read (Elt Ideal) (G (V c main_v4) (V c main_v14) (V c main_v15)) := by
  show (cfg1.win 3).cut (grid1.coords t) ((dat1 V c).after 3 t) = _
  rw [after1_3]
  unfold out1_3
  rw [View.canon_unit_zero hz]
  simp only [View.ld_unit_zero (S := S5000x32) hz, View.ld_unit_zero (S := S1x32) hz]
  obtain ⟨e0, e1, e2, e3, e4, e5, e6, e7⟩ := idx_facts t
  funext j
  obtain ⟨p, q, rfl⟩ : ∃ (p : Fin 5000) (q : Fin 32), j = ix2 p q := ⟨j 0, j 1, eq_ix2 j⟩
  refine (pay_apply _ _ _ p q).trans ?_
  show _ = G (V c main_v4) (V c main_v14) (V c main_v15) (((cfg1.win 3).blk t).view.emb (ix2 p q))
  unfold G
  have h0 : ((cfg1.win 0).blk t).view.emb (ix2 p q) = ((cfg1.win 3).blk t).view.emb (ix2 p q) := by
    funext a; apply Fin.ext
    match a with
    | ⟨0, _⟩ => show win1_0.index t (0 : Fin 2) * 5000 + 1 * p.val = win1_3.index t (0 : Fin 2) * 5000 + 1 * p.val; omega
    | ⟨1, _⟩ => show win1_0.index t (1 : Fin 2) * 32 + 1 * q.val = win1_3.index t (1 : Fin 2) * 32 + 1 * q.val; omega
  have h1 : ((cfg1.win 1).blk t).view.emb (ix2 p q) = ((cfg1.win 3).blk t).view.emb (ix2 p q) := by
    funext a; apply Fin.ext
    match a with
    | ⟨0, _⟩ => show win1_1.index t (0 : Fin 2) * 5000 + 1 * p.val = win1_3.index t (0 : Fin 2) * 5000 + 1 * p.val; omega
    | ⟨1, _⟩ => show win1_1.index t (1 : Fin 2) * 32 + 1 * q.val = win1_3.index t (1 : Fin 2) * 32 + 1 * q.val; omega
  have h2 : ((cfg1.win 2).blk t).view.emb (ix2 (0 : Fin 1) q)
      = ix2 (0 : Fin 1) (⟨((((cfg1.win 3).blk t).view.emb (ix2 p q)) 1).val, ((((cfg1.win 3).blk t).view.emb (ix2 p q)) 1).isLt⟩ : Fin 32) := by
    funext a; apply Fin.ext
    match a with
    | ⟨0, _⟩ => show win1_2.index t (0 : Fin 2) * 1 + 1 * 0 = 0; omega
    | ⟨1, _⟩ => show win1_2.index t (1 : Fin 2) * 32 + 1 * q.val = win1_3.index t (1 : Fin 2) * 32 + 1 * q.val; omega
  refine congrArg₂ (· + ·) (congrArg₂ (· + ·) ?_ ?_) ?_
  · exact congrArg (V c main_v4) h0
  · exact congrArg (V c main_v14) h1
  · exact congrArg (V c main_v15) h2

/-- An index of the array is in point `t`'s block iff each coordinate is in the block's range on its axis. -/
theorem mem_blk (t : Fin cfg1.N) (i : S100000x32.Idx) :
    i ∈ ((cfg1.win 3).blk t).view.set ↔ ∀ a : Fin 2, win1_3.index t a * S5000x32.size a ≤ (i a).val
      ∧ (i a).val < win1_3.index t a * S5000x32.size a + S5000x32.size a := by
  show i ∈ ((View.whole main_v16).slice (win1_3.rect t)).set ↔ _
  rw [View.set_slice_whole, Rect.mem_set_unit]
  exact Iff.rfl

/-- The twenty blocks tile the array: row `r` is in block `r / 5000`. -/
theorem cover (i : S100000x32.Idx) :
    ∃ t : Fin cfg1.N, (cfg1.win 3).flush t = true ∧ i ∈ ((cfg1.win 3).blk t).view.set := by
  have hi0 : (i 0).val < 100000 := (i 0).isLt
  have hi1 : (i 1).val < 32 := (i 1).isLt
  have hN : cfg1.N = 20 := N_1
  refine ⟨⟨(i 0).val / 5000, by rw [hN]; omega⟩, flush1_3 _, ?_⟩
  rw [mem_blk]
  obtain ⟨e0, e1, e2, e3, e4, e5, e6, e7⟩ := idx_facts ⟨(i 0).val / 5000, by rw [hN]; omega⟩
  intro a
  match a with
  | ⟨0, _⟩ =>
    show win1_3.index _ (0 : Fin 2) * 5000 ≤ (i 0).val ∧ (i 0).val < win1_3.index _ (0 : Fin 2) * 5000 + 5000
    rw [e6]; show (i 0).val / 5000 * 5000 ≤ (i 0).val ∧ (i 0).val < (i 0).val / 5000 * 5000 + 5000; omega
  | ⟨1, _⟩ =>
    show win1_3.index _ (1 : Fin 2) * 32 ≤ (i 1).val ∧ (i 1).val < win1_3.index _ (1 : Fin 2) * 32 + 32
    rw [e7]; omega

/-- The array the call leaves: the entrywise sum, of the arrays as the call finds them. -/
theorem final (c : Dev nD) : (dat1 V c).arrAt 3 cfg1.N = G (V c main_v4) (V c main_v14) (V c main_v15) :=
  (dat1 V c).arrAt_eq_of_cover 3 (G (V c main_v4) (V c main_v14) (V c main_v15)) (fun t _ => flushed_eq V c t) cover

end Cert.KernelIdeal.Combine

end
-- ==== Proof.LibGatherRows.lean ====
/-
  A reusable general lemma: `stablehlo.gather` of WHOLE ROWS of a rank-2 operand, read at an index.

  What `x[idx]` of a table `x : [N, C]` at an integer array `idx : [R]` lowers to: a gather with offset_dims `[1]`,
  collapsed_slice_dims `[0]`, start_index_map `[0]`, index_vector_dim 1 and slice sizes `[1, C]` over the indices as a
  column `[R, 1]`. Result element `(r, c)` is `x` at row `idx[r, 0]` — read as a signed integer and clamped into
  `[0, N − 1]`, as the operation clamps every start index so that the slice fits — and column `c`: on the collapsed
  axis the operand index is the clamped start alone, on the other axis (which the start index map does not name) it is
  the result's own offset coordinate. Stated at any extents `N`, `R`, `C` and any index width.
-/
import Idealize.ShloMosaic.Lib.ValueIdx

noncomputable section

namespace Idealize.ShloMosaic.GatherRows

open Idealize.ShloMosaic Idealize.ShloMosaic.ValueIdx

variable {α : Type}

/-- The row gather's dimension numbers for an operand `[N, C]`, start indices `[R, 1]` and result `[R, C]`; their
    conditions `wf` are decided on a program's literal shapes. -/
abbrev rowDims (N R C : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(r, c)`: the operand at row `idx[r, 0]`, read signed and clamped into `[0, N − 1]`, and
    column `c`. -/
theorem gather_rows_apply {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (c : Fin C) :
    Host.gather (rowDims N R C wf) x idx (ix2 r c)
      = x (ix2 ⟨min (idx (ix2 r (0 : Fin 1))).toInt.toNat (N - 1), by omega⟩ c) := by
  unfold Host.gather
  congr 1
  funext a
  refine Fin.ext ?_
  match a with
  | ⟨0, _⟩ =>
    show (rowDims N R C wf).start (ix2 r c) idx 0 + (rowDims N R C wf).batchCoord (ix2 r c) 0
        + (rowDims N R C wf).offCoord (ix2 r c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N R C wf).startIndexMap from List.mem_singleton.mpr rfl)]
    have hsi : (rowDims N R C wf).siIdx (ix2 r c) ⟨List.idxOf (0 : Fin 2) (rowDims N R C wf).startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl
  | ⟨1, _⟩ =>
    show (rowDims N R C wf).start (ix2 r c) idx 1 + (rowDims N R C wf).batchCoord (ix2 r c) 1
        + (rowDims N R C wf).offCoord (ix2 r c) 1 = c.val
    rw [GatherDims.batchCoord_eq_zero _ _ _ List.not_mem_nil]
    unfold GatherDims.start
    rw [dif_neg (show (1 : Fin 2) ∉ (rowDims N R C wf).startIndexMap from (by decide : (1 : Fin 2) ∉ [(0 : Fin 2)]))]
    simp only [Nat.add_zero, Nat.zero_add]
    rfl

end Idealize.ShloMosaic.GatherRows

end
-- ==== Proof.LibScatterRows.lean ====
/-
  A reusable general lemma: the host's accumulating scatter of WHOLE ROWS into a rank-2 operand, read at an index,
  on the extended reals.

  What `segment_sum(u, idx, N)` (or `x.at[idx].add(u)`) of update rows `u : [E, C]` at an integer array `idx : [E]`
  lowers to: a scatter with an `add` body, update_window_dims `[1]`, inserted_window_dims `[0]`,
  scatter_dims_to_operand_dims `[0]` and index_vector_dim 1 over the indices as a column `[E, 1]`. Update entry
  `(e, c)` lands on operand entry `(idx[e, 0], c)`: the row is the index read as a SIGNED integer and NOT clamped, so
  an update whose row is negative or at least `N` lands nowhere and is dropped; the column is the update's own. On the
  extended reals the result at `(n, c)` is therefore the operand's entry plus the sum, over the update rows `e` whose
  index is `n`, of `u (e, c)`. Stated at any extents `N`, `E`, `C` and any index width.
-/
import Idealize.ShloMosaic.Lib.ValueIdx
import Idealize.ShloMosaic.PureOps.Ideal

noncomputable section

open scoped BigOperators

namespace Idealize.ShloMosaic.ScatterRows

open Idealize.ShloMosaic Idealize.ShloMosaic.ValueIdx

/-- The row scatter's dimension numbers for an operand `[N, C]`, scatter indices `[E, 1]` and updates `[E, C]`; their
    conditions `wf` are decided on a program's literal shapes. -/
abbrev rowDims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

variable {N E C w : Nat} (wf : ScatterDims.WF ⟨2, ![N, C]⟩ ⟨2, ![E, 1]⟩ ⟨2, ![E, C]⟩ [1] [0] [0] 1)

/-- On the row axis the window of update `(e, c)` starts at the index `idx[e, 0]`, read signed. -/
theorem start_row (idx : IVec ⟨2, ![E, 1]⟩ w) (e : Fin E) (c : Fin C) :
    (rowDims N E C wf).start (ix2 e c) idx 0 = (idx (ix2 e (0 : Fin 1))).toInt := by
  unfold ScatterDims.start
  rw [dif_pos (show (0 : Fin 2) ∈ (rowDims N E C wf).scatterDimsToOperandDims from List.mem_singleton.mpr rfl)]
  have hsi : (rowDims N E C wf).siIdx (ix2 e c) ⟨List.idxOf (0 : Fin 2) (rowDims N E C wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- The column axis is not named by the index map: the window starts at `0` there. -/
theorem start_col (idx : IVec ⟨2, ![E, 1]⟩ w) (e : Fin E) (c : Fin C) :
    (rowDims N E C wf).start (ix2 e c) idx 1 = 0 := by
  unfold ScatterDims.start
  rw [dif_neg (show (1 : Fin 2) ∉ (rowDims N E C wf).scatterDimsToOperandDims from (by decide : (1 : Fin 2) ∉ [(0 : Fin 2)]))]

/-- The row axis is an inserted one: the window coordinate is `0` there. -/
theorem window_row (e : Fin E) (c : Fin C) : (rowDims N E C wf).window (ix2 e c) 0 = 0 := by
  unfold ScatterDims.window
  rw [dif_neg (show (0 : Fin 2) ∉ (rowDims N E C wf).sKept from
    (by decide : (0 : Fin 2) ∉ (List.finRange 2).filter (· ∉ [(0 : Fin 2)])))]

/-- On the column axis the window coordinate is the update's own column. -/
theorem window_col (e : Fin E) (c : Fin C) : (rowDims N E C wf).window (ix2 e c) 1 = c.val := by
  unfold ScatterDims.window
  rw [dif_pos (show (1 : Fin 2) ∈ (rowDims N E C wf).sKept from
    (by decide : (1 : Fin 2) ∈ (List.finRange 2).filter (· ∉ [(0 : Fin 2)])))]
  rfl

/-- Update `(e, c')` lands on `(n, c)` exactly when its index, read signed, is `n` and its column is `c`. -/
theorem resultIdx?_eq_some_iff (idx : IVec ⟨2, ![E, 1]⟩ w) (e : Fin E) (c' c : Fin C) (n : Fin N) :
    (rowDims N E C wf).resultIdx? (ix2 e c') idx = some (ix2 n c)
      ↔ ((idx (ix2 e (0 : Fin 1))).toInt = (n.val : Int) ∧ c' = c) := by
  have hn := n.isLt
  have hc' := c'.isLt
  unfold ScatterDims.resultIdx?
  by_cases h : ∀ a, 0 ≤ (rowDims N E C wf).start (ix2 e c') idx a + (rowDims N E C wf).window (ix2 e c') a
      ∧ (rowDims N E C wf).start (ix2 e c') idx a + (rowDims N E C wf).window (ix2 e c') a
        < ((⟨2, ![N, C]⟩ : Shape).size a : Int)
  · rw [dif_pos h, Option.some.injEq]
    have h0 := h 0
    rw [start_row, window_row] at h0
    constructor
    · intro heq
      have e0 := congrArg Fin.val (congrFun heq 0)
      have e1 := congrArg Fin.val (congrFun heq 1)
      change ((rowDims N E C wf).start (ix2 e c') idx 0 + ((rowDims N E C wf).window (ix2 e c') 0 : Nat)).toNat = n.val at e0
      change ((rowDims N E C wf).start (ix2 e c') idx 1 + ((rowDims N E C wf).window (ix2 e c') 1 : Nat)).toNat = c.val at e1
      rw [start_row, window_row] at e0
      rw [start_col, window_col] at e1
      refine ⟨by omega, Fin.ext (by omega)⟩
    · rintro ⟨ht, rfl⟩
      funext a
      refine Fin.ext ?_
      match a with
      | ⟨0, _⟩ =>
        show ((rowDims N E C wf).start (ix2 e c') idx 0 + ((rowDims N E C wf).window (ix2 e c') 0 : Nat)).toNat = n.val
        rw [start_row, window_row]; omega
      | ⟨1, _⟩ =>
        show ((rowDims N E C wf).start (ix2 e c') idx 1 + ((rowDims N E C wf).window (ix2 e c') 1 : Nat)).toNat = c'.val
        rw [start_col, window_col]; omega
  · rw [dif_neg h]
    refine ⟨fun hh => absurd hh (by simp), ?_⟩
    rintro ⟨ht, rfl⟩
    refine absurd (fun a => ?_) h
    match a with
    | ⟨0, _⟩ =>
      show 0 ≤ (rowDims N E C wf).start (ix2 e c') idx 0 + ((rowDims N E C wf).window (ix2 e c') 0 : Nat)
        ∧ (rowDims N E C wf).start (ix2 e c') idx 0 + ((rowDims N E C wf).window (ix2 e c') 0 : Nat) < (N : Int)
      rw [start_row, window_row]; omega
    | ⟨1, _⟩ =>
      show 0 ≤ (rowDims N E C wf).start (ix2 e c') idx 1 + ((rowDims N E C wf).window (ix2 e c') 1 : Nat)
        ∧ (rowDims N E C wf).start (ix2 e c') idx 1 + ((rowDims N E C wf).window (ix2 e c') 1 : Nat) < (C : Int)
      rw [start_col, window_col]; omega

/-- THE ROW SCATTER-ADD READ AT `(n, c)`, on the extended reals: the operand's entry plus the sum, over the update rows
    whose index (read signed) is `n`, of the update's entry in column `c`. -/
theorem scatterAdd_rows_apply (x : (⟨2, ![N, C]⟩ : Shape).Idx → EReal) (idx : IVec ⟨2, ![E, 1]⟩ w)
    (upd : (⟨2, ![E, C]⟩ : Shape).Idx → EReal) (n : Fin N) (c : Fin C) :
    Ideal.hostScatterAdd (rowDims N E C wf) x idx upd (ix2 n c)
      = x (ix2 n c) + ∑ e : Fin E, if (idx (ix2 e (0 : Fin 1))).toInt = (n.val : Int) then upd (ix2 e c) else 0 := by
  unfold Ideal.hostScatterAdd
  refine congrArg (x (ix2 n c) + ·) ?_
  rw [Finset.sum_filter, sum_idx2]
  refine Finset.sum_congr rfl fun e _ => ?_
  simp only [resultIdx?_eq_some_iff]
  by_cases ht : (idx (ix2 e (0 : Fin 1))).toInt = (n.val : Int)
  · simp only [ht, true_and, if_true]
    rw [Finset.sum_ite_eq' Finset.univ c (fun c' => upd (ix2 e c'))]
    simp
  · simp only [ht, false_and, if_false, Finset.sum_const_zero]

/-- The same for the host operation as a program spells it, at any record of these dimension numbers that is the row
    record (`hd`, by `rfl` on a program's literal record). -/
theorem host_scatterAdd_rows_apply {φ : FTy} (d : ScatterDims ⟨2, ![N, C]⟩ ⟨2, ![E, 1]⟩ ⟨2, ![E, C]⟩)
    (hd : d = rowDims N E C wf) (x : FVec Ideal ⟨2, ![N, C]⟩ φ) (idx : IVec ⟨2, ![E, 1]⟩ w)
    (upd : FVec Ideal ⟨2, ![E, C]⟩ φ) (n : Fin N) (c : Fin C) :
    Host.scatterAdd d x idx upd (ix2 n c)
      = x (ix2 n c) + ∑ e : Fin E, if (idx (ix2 e (0 : Fin 1))).toInt = (n.val : Int) then upd (ix2 e c) else 0 := by
  subst hd
  exact scatterAdd_rows_apply wf x idx upd n c

end Idealize.ShloMosaic.ScatterRows

end
-- ==== Proof.KernelValue.lean ====
/-
  The kernel's result at an entry.

  Between the two calls the host forms the two columns of edge indices from the integer argument (the source row of the
  argument with negative entries moved up by the table's length, and the destination row, each as a column), gathers the
  projected rows of the edges' sources, adds each to the row of its edge's destination (a scatter-add into a zero
  array), and recasts the bias as a row. The first call's array is the projection of every row (Projection.lean), the
  second call's the entrywise sum of projections, received projections and bias (Combine.lean). Read at entry (n, q),
  with the gather as "the row the edge reads" and the scatter-add as a sum over the edges that arrive at `n`, the
  result is the layer computed project-first.
-/
import proofs.«164265_j71949292143001_2_alg».proof.Proof.Gen.KernelIdeal.Frame
import proofs.«164265_j71949292143001_2_alg».proof.Proof.Projection
import proofs.«164265_j71949292143001_2_alg».proof.Proof.Combine
import proofs.«164265_j71949292143001_2_alg».proof.Proof.LibGatherRows
import proofs.«164265_j71949292143001_2_alg».proof.Proof.LibScatterRows
import proofs.«164265_j71949292143001_2_alg».proof.Proof.Spec
import Idealize.ShloMosaic.Lib.StableHlo.Run
import Idealize.ShloMosaic.Lib.Pipeline.Value
import Idealize.ShloMosaic.PureOps.Ideal.Laws

set_option maxRecDepth 16384

noncomputable section

open scoped BigOperators

namespace Cert.KernelIdeal.Result

open Cert.KernelIdeal Cert.KernelIdeal.Gen
open Idealize.ShloMosaic Idealize.ShloMosaic.TcCoe Idealize.ShloMosaic.ValueIdx Idealize.SL.Sem Idealize.ShloMosaic.StableHlo

/-! ## The edge columns, as the host forms them from the integer argument -/

/-- Row `r` of the 2 × 1600000 integer argument as a flat array. -/
def srcIdx (x1 : IVec S2x1600000 32) : IVec S1600000 32 :=
  shapeCast S1600000 (extractStridedSlice S1x1600000 ![0, 0] x1 slices_S2x1600000_S1x1600000_0_0) shapeCasts_S1x1600000_S1600000
def dstIdx (x1 : IVec S2x1600000 32) : IVec S1600000 32 :=
  shapeCast S1600000 (extractStridedSlice S1x1600000 ![1, 0] x1 slices_S2x1600000_S1x1600000_1_0) shapeCasts_S1x1600000_S1600000
/-- The source indices with negative entries moved up by the table's length, as a column. -/
def srcCol (x1 : IVec S2x1600000 32) : IVec S1600000x1 32 :=
  broadcastInDim S1600000x1 ![0] bcast_S1600000_S1600000x1_0
    (select (cmpi .slt (srcIdx x1) (broadcastInDim S1600000 ![] bcast_S_S1600000 (constantI S_ 32 0#32)))
      (addi (srcIdx x1) (broadcastInDim S1600000 ![] bcast_S_S1600000 (constantI S_ 32 100000#32))) (srcIdx x1))
/-- The destination indices as a column. -/
def dstCol (x1 : IVec S2x1600000 32) : IVec S1600000x1 32 :=
  broadcastInDim S1600000x1 ![0] bcast_S1600000_S1600000x1_0 (dstIdx x1)

variable (m : (ℓ : Loc nD τ sig) → Buf (Elt Ideal) ℓ) (ρ : Dev nD → PrngReg)

/-! ## The boundaries' contents, walked back to the arguments -/

theorem V1_arg0 (c : Dev nD) : V1 m ρ c main_arg0 = m ((c : Thread nD τ).loc main_arg0) := by
  show StableHlo.after hostOps0 (W0 m ρ c) (Proc.devRef .tc main_arg0) = _
  after_results
theorem V1_arg2 (c : Dev nD) : V1 m ρ c main_arg2 = m ((c : Thread nD τ).loc main_arg2) := by
  show StableHlo.after hostOps0 (W0 m ρ c) (Proc.devRef .tc main_arg2) = _
  after_results

/-- After the first call the projections' buffer holds every row's projection. -/
theorem W2_v4 (c : Dev nD) : W2 m ρ c (Proc.devRef .tc main_v4)
    = Projection.Y (m ((c : Thread nD τ).loc main_arg0)) (m ((c : Thread nD τ).loc main_arg2)) := by
  refine (W2_arr m ρ c 2).trans ((Projection.final (V1 m ρ) c).trans ?_)
  rw [V1_arg0, V1_arg2]

theorem W2_v1 (c : Dev nD) : W2 m ρ c (Proc.devRef .tc main_v1) = srcIdx (m ((c : Thread nD τ).loc main_arg1)) := by
  refine (W2_of_ne m ρ c main_v1 (by decide)).trans ?_
  show StableHlo.after hostOps0 (W0 m ρ c) (Proc.devRef .tc main_v1) = _
  after_results
  rfl
theorem W2_v3 (c : Dev nD) : W2 m ρ c (Proc.devRef .tc main_v3) = dstIdx (m ((c : Thread nD τ).loc main_arg1)) := by
  refine (W2_of_ne m ρ c main_v3 (by decide)).trans ?_
  show StableHlo.after hostOps0 (W0 m ρ c) (Proc.devRef .tc main_v3) = _
  after_results
  rfl
theorem W2_arg3 (c : Dev nD) : W2 m ρ c (Proc.devRef .tc main_arg3) = m ((c : Thread nD τ).loc main_arg3) := by
  refine (W2_of_ne m ρ c main_arg3 (by decide)).trans ?_
  show StableHlo.after hostOps0 (W0 m ρ c) (Proc.devRef .tc main_arg3) = _
  after_results

/-- At the second call's entry the projections are still there, -/
theorem V3_v4 (c : Dev nD) : V3 m ρ c main_v4
    = Projection.Y (m ((c : Thread nD τ).loc main_arg0)) (m ((c : Thread nD τ).loc main_arg2)) := by
  show StableHlo.after hostOps1 (W2 m ρ c) (Proc.devRef .tc main_v4) = _
  after_results
  exact W2_v4 m ρ c

/-- the received projections are the scatter-add of the gathered projections into the zero array, -/
theorem V3_v14 (c : Dev nD) : (V3 m ρ c main_v14 : FVec Ideal S100000x32 .f32)
    = Host.scatterAdd (F := Ideal) scatter_S100000x32_S1600000x1_S1600000x32_1_0_0_1
        (broadcastInDim S100000x32 ![] bcast_S_S100000x32 (constant (F := Ideal) S_ .f32 0x00000000#32))
        (dstCol (m ((c : Thread nD τ).loc main_arg1)))
        (Host.gather gather_S100000x32_S1600000x1_S1600000x32_1_0_n_n_0_1_132
          (Projection.Y (m ((c : Thread nD τ).loc main_arg0)) (m ((c : Thread nD τ).loc main_arg2)))
          (srcCol (m ((c : Thread nD τ).loc main_arg1)))) := by
  show StableHlo.after hostOps1 (W2 m ρ c) (Proc.devRef .tc main_v14) = _
  after_results
  rw [W2_v4, W2_v1, W2_v3]
  rfl

/-- and the bias is recast as a row. -/
theorem V3_v15 (c : Dev nD) : (V3 m ρ c main_v15 : FVec Ideal S1x32 .f32)
    = shapeCast S1x32 (m ((c : Thread nD τ).loc main_arg3) : FVec Ideal S32 .f32) shapeCasts_S32_S1x32 := by
  show StableHlo.after hostOps1 (W2 m ρ c) (Proc.devRef .tc main_v15) = _
  after_results
  rw [W2_arg3]
  rfl

/-! ## At an entry -/

/-- The received projections at (n, q): the sum over the edges arriving at `n` of the projection of the row the edge reads. -/
theorem received_apply (x : S100000x128.Idx → EReal) (W : S32x128.Idx → EReal) (si di : IVec S1600000x1 32)
    (n : Fin 100000) (q : Fin 32) :
    Host.scatterAdd scatter_S100000x32_S1600000x1_S1600000x32_1_0_0_1
        (broadcastInDim S100000x32 ![] bcast_S_S100000x32 (constant (F := Ideal) S_ .f32 0x00000000#32)) di
        (Host.gather gather_S100000x32_S1600000x1_S1600000x32_1_0_n_n_0_1_132 (Projection.Y x W) si) (ix2 n q)
      = ∑ e : Fin 1600000, if (di (ix2 e (0 : Fin 1))).toInt = (n.val : Int)
          then Layer.proj x W (Layer.srcRow si e) q else 0 := by
  refine (ScatterRows.host_scatterAdd_rows_apply scatter_S100000x32_S1600000x1_S1600000x32_1_0_0_1.wf scatter_S100000x32_S1600000x1_S1600000x32_1_0_0_1 rfl
    (broadcastInDim S100000x32 ![] bcast_S_S100000x32 (constant (F := Ideal) S_ .f32 0x00000000#32)) di
    (Host.gather gather_S100000x32_S1600000x1_S1600000x32_1_0_n_n_0_1_132 (Projection.Y x W) si) n q).trans ?_
  show Ideal.ofBits .f32 0x00000000#32 + _ = _
  rw [Ideal.ofBits_zero_f32, zero_add]
  refine Finset.sum_congr rfl fun e _ => ?_
  refine if_congr Iff.rfl ?_ rfl
  exact GatherRows.gather_rows_apply (by decide) gather_S100000x32_S1600000x1_S1600000x32_1_0_n_n_0_1_132.wf (Projection.Y x W) si e q

/-- The bias recast as a 1 × 32 row, read at (0, q): the bias at `q`. -/
theorem bias_row_apply (b : S32.Idx → EReal) (q : Fin 32) :
    shapeCast S1x32 b shapeCasts_S32_S1x32 (ix2 (0 : Fin 1) q) = b (ix1 q) :=
  shapeCast_apply b shapeCasts_S32_S1x32 (ix2 (0 : Fin 1) q) (ix1 q)
    (by rewrite [Shape.rowMajor_val_one, Shape.rowMajor_val_two]; show q.val = 0 * 32 + q.val; omega)

/-- THE KERNEL AT (n, q): the layer computed project-first. -/
theorem result_apply (c : Dev nD) (n : Fin 100000) (q : Fin 32) :
    (W4 m ρ c (Proc.devRef .tc main_v16) : S100000x32.Idx → EReal) (ix2 n q)
      = Layer.projectFirst (m ((c : Thread nD τ).loc main_arg0)) (m ((c : Thread nD τ).loc main_arg2))
          (m ((c : Thread nD τ).loc main_arg3)) (srcCol (m ((c : Thread nD τ).loc main_arg1)))
          (dstCol (m ((c : Thread nD τ).loc main_arg1))) n q := by
  have h4 : W4 m ρ c (Proc.devRef .tc main_v16)
      = Combine.G (V3 m ρ c main_v4) (V3 m ρ c main_v14) (V3 m ρ c main_v15) :=
    (W4_arr m ρ c 3).trans (Combine.final (V3 m ρ) c)
  rw [h4, V3_v4, V3_v14, V3_v15]
  unfold Combine.G Layer.projectFirst
  refine congrArg₂ (· + ·) (congrArg₂ (· + ·) rfl ?_) ?_
  · exact received_apply _ _ _ _ n q
  · exact bias_row_apply (m ((c : Thread nD τ).loc main_arg3)) q

end Cert.KernelIdeal.Result

end
-- ==== Proof.Reference.lean ====
/-
  The reference's result at an entry.

  The reference gathers the 128-wide feature rows of the edges' sources, adds each to the row of the edge's destination
  (a scatter-add into a zero array), adds the node's own row, multiplies by the transposed weights and adds the bias.
  Read at entry (n, c), with the gather as "the row the edge reads" and the scatter-add as a sum over the edges that
  arrive at `n`, this is the layer computed aggregate-first, of the two columns of edge indices the program forms
  from its integer argument.
-/
import proofs.«164265_j71949292143001_2_alg».proof.Proof.Gen.ReferenceIdeal.Read
import proofs.«164265_j71949292143001_2_alg».proof.Proof.LibGatherRows
import proofs.«164265_j71949292143001_2_alg».proof.Proof.LibScatterRows
import proofs.«164265_j71949292143001_2_alg».proof.Proof.Spec

noncomputable section

open scoped BigOperators

namespace Cert.ReferenceIdeal.AtEntry

open Cert.ReferenceIdeal Cert.ReferenceIdeal.Gen Cert.ReferenceIdeal.Read
open Idealize.ShloMosaic Idealize.ShloMosaic.TcCoe Idealize.ShloMosaic.ValueIdx Idealize.SL.Sem

/-- The received rows at (n, k): the scatter-add of the gathered rows into the zero array. -/
theorem received_apply (x0 : (⟨S100000x128, .f32⟩ : BufTy).Contents (Elt Ideal))
    (x1 : (⟨S2x1600000, .i32⟩ : BufTy).Contents (Elt Ideal)) (n : Fin 100000) (k : Fin 128) :
    val_main_v13 (F := Ideal) x0 x1 (ix2 n k)
      = ∑ e : Fin 1600000, if ((val_main_v12 (F := Ideal) x1) (ix2 e (0 : Fin 1))).toInt = (n.val : Int)
          then x0 (ix2 (Layer.srcRow (val_main_v9 (F := Ideal) x1) e) k) else 0 := by
  unfold val_main_v13
  refine (ScatterRows.host_scatterAdd_rows_apply scatter_S100000x128_S1600000x1_S1600000x128_1_0_0_1.wf scatter_S100000x128_S1600000x1_S1600000x128_1_0_0_1 rfl (val_main_v11 (F := Ideal))
    (val_main_v12 (F := Ideal) x1) (val_main_v10 (F := Ideal) x0 x1) n k).trans ?_
  rw [val_main_v11_apply, val_main_cst_apply]
  show Ideal.ofBits .f32 0x00000000#32 + _ = _
  rw [Ideal.ofBits_zero_f32, zero_add]
  refine Finset.sum_congr rfl fun e _ => ?_
  refine if_congr Iff.rfl ?_ rfl
  unfold val_main_v10
  exact GatherRows.gather_rows_apply (by decide) gather_S100000x128_S1600000x1_S1600000x128_1_0_n_n_0_1_1128.wf x0 (val_main_v9 (F := Ideal) x1) e k

/-- THE REFERENCE AT (n, c): the layer computed aggregate-first. -/
theorem result_apply (x0 : (⟨S100000x128, .f32⟩ : BufTy).Contents (Elt Ideal))
    (x1 : (⟨S2x1600000, .i32⟩ : BufTy).Contents (Elt Ideal)) (x2 : (⟨S32x128, .f32⟩ : BufTy).Contents (Elt Ideal))
    (x3 : (⟨S32, .f32⟩ : BufTy).Contents (Elt Ideal)) (n : Fin 100000) (c : Fin 32) :
    val_main_v19 (F := Ideal) x0 x1 x2 x3 (ix2 n c)
      = Layer.aggregateFirst x0 x2 x3 (val_main_v9 (F := Ideal) x1) (val_main_v12 (F := Ideal) x1) n c := by
  rw [val_main_v19_apply, val_main_v16_apply, val_main_v18_apply, val_main_v17_apply]
  unfold Layer.aggregateFirst
  refine congrArg₂ (· + ·) (Finset.sum_congr rfl fun k _ => ?_) (congrArg x3 ?_)
  · have hl : lidx_main_v16 (ix2 n c) k = ix2 n k := funext fun a => Fin.ext (by
      match a with
      | ⟨0, _⟩ => rfl
      | ⟨1, _⟩ => rfl)
    have hr : idx_main_v15 (ridx_main_v16 (ix2 n c) k) = ix2 c k := funext fun a => Fin.ext (by
      match a with
      | ⟨0, _⟩ => rfl
      | ⟨1, _⟩ => rfl)
    rw [hl, val_main_v15_apply, hr, val_main_v14_apply]
    refine congrArg (· * x2 (ix2 c k)) ?_
    exact congrArg (x0 (ix2 n k) + ·) (received_apply x0 x1 n k)
  · exact funext fun a => Fin.ext (by
      match a with
      | ⟨0, _⟩ => rfl)

end Cert.ReferenceIdeal.AtEntry

end
-- ==== Proof.Finite.lean ====
/-
  From the precondition to real entries.

  The precondition says, of each float argument, that every entry's absolute value is below `+inf`, the three
  statements joined by `and`. An extended real whose absolute value `max x (-x)` is below `⊤` is neither `⊤` nor
  `⊥` (whose negation is `⊤`), so it is a real number. The joining law needs this of the features and of the weights.
-/
import proofs.«164265_j71949292143001_2_alg».proof.Pre_finite_inputs
import Idealize.ShloMosaic.Lib.ReduceAll
import Idealize.ShloMosaic.Lib.ValueIdx
import Idealize.ShloMosaic.PureOps.Ideal.Laws

noncomputable section

namespace Cert.Finite

open Idealize.ShloMosaic Idealize.ShloMosaic.ValueIdx Cert.Pre_finite_inputs

instance : Subsingleton S_.Idx := ⟨fun a b => funext fun d => d.elim0⟩

/-- The word `0x7F800000` is `+inf`. -/
theorem inf_word : Ideal.ofBits .f32 0x7F800000#32 = (⊤ : EReal) := by simp [Ideal.ofBits, Ideal.ieee]

/-- An extended real whose absolute value is below `+inf` is a real number. -/
theorem real_of_abs_lt_inf (x : EReal)
    (h : Ideal.cmp .olt (max x (-x)) (Ideal.ofBits .f32 0x7F800000#32) = 1#1) : ∃ r : ℝ, x = (r : EReal) := by
  rw [inf_word] at h
  unfold Ideal.cmp at h
  induction x using EReal.rec with
  | bot => simp at h
  | coe r => exact ⟨r, rfl⟩
  | top => simp at h

variable [Cert.Pre_finite_inputs.Facts]

/-- Under the precondition the features and the weights are real, entry by entry. -/
theorem entries_real (x0 : FVec Ideal S100000x128 .f32) (x1 : IVec S2x1600000 32) (x2 : FVec Ideal S32x128 .f32)
    (x3 : FVec Ideal S32 .f32) (h : Cert.Pre_finite_inputs.fn (F := Ideal) x0 x1 x2 x3 = fun _ => 1#1) :
    (∀ i, ∃ r : ℝ, x0 i = (r : EReal)) ∧ (∀ i, ∃ r : ℝ, x2 i = (r : EReal)) := by
  have h0 := congrFun h ix0
  dsimp only [Cert.Pre_finite_inputs.fn] at h0
  change IntOp.andi (IntOp.andi _ _) _ = 1#1 at h0
  obtain ⟨h12, -⟩ := IntOp.andi_eq_one.1 h0
  obtain ⟨h1, h2⟩ := IntOp.andi_eq_one.1 h12
  exact ⟨fun i => real_of_abs_lt_inf _ (Host.reduce_andi_all _ _ _ _ _ h1 i),
    fun i => real_of_abs_lt_inf _ (Host.reduce_andi_all _ _ _ _ _ h2 i)⟩

end Cert.Finite

end
-- ==== Proof.lean ====
/- The proof of `Cert.Claim`: a graph layer that projects before it aggregates, against one that aggregates before it
   projects.

   The kernel computes `y = x·Wᵀ` in a first call, lets the host gather the projected rows of the edges' sources and
   add them at the edges' destinations, and in a second call adds `y`, the received projections and the bias. The
   reference gathers and adds the 128-wide feature rows first, adds the node's own row, and projects the sum. Both
   form the same two columns of edge indices from the integer argument and treat an out-of-range index alike (a
   source index is clamped into the table, an edge whose destination is no node is dropped), so entry by entry the two
   results are the two orders of Spec.lean, equal because the projection is linear — which on the extended reals needs
   the features and the weights real, and that is what the precondition gives (Finite.lean).

   The three frames are the generated ones (the reference's its generated run with the result dropped); the kernel's
   idealization rewrote nothing, so `preserves` is trivial. -/
import proofs.«164265_j71949292143001_2_alg».proof.Defs
import proofs.«164265_j71949292143001_2_alg».proof.Proof.Gen.Kernel
import proofs.«164265_j71949292143001_2_alg».proof.Proof.Gen.Kernel.Frame
import proofs.«164265_j71949292143001_2_alg».proof.Proof.Gen.KernelIdeal
import proofs.«164265_j71949292143001_2_alg».proof.Proof.Gen.KernelIdeal.Frame
import proofs.«164265_j71949292143001_2_alg».proof.Proof.Gen.ReferenceIdeal
import proofs.«164265_j71949292143001_2_alg».proof.Proof.Gen.ReferenceIdeal.Run
import proofs.«164265_j71949292143001_2_alg».proof.Proof.Gen.ReferenceIdeal.Read
import proofs.«164265_j71949292143001_2_alg».proof.Proof.Gen.Pre_finite_inputs
import proofs.«164265_j71949292143001_2_alg».proof.Proof.KernelRun
import proofs.«164265_j71949292143001_2_alg».proof.Proof.KernelValue
import proofs.«164265_j71949292143001_2_alg».proof.Proof.Reference
import proofs.«164265_j71949292143001_2_alg».proof.Proof.Finite
import proofs.«164265_j71949292143001_2_alg».proof.Proof.Spec
import Idealize.ShloMosaic.Adequacy
import Idealize.ShloMosaic.Init

noncomputable section

namespace Cert.Proof

open Idealize.ShloMosaic Idealize.ShloMosaic.ValueIdx Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- The two programs form the same column of source indices from the integer argument, -/
theorem srcCol_eq (x1 : IVec Cert.KernelIdeal.S2x1600000 32) :
    Cert.KernelIdeal.Result.srcCol x1 = Cert.ReferenceIdeal.Read.val_main_v9 (F := Ideal) x1 := rfl
/-- and the same column of destination indices. -/
theorem dstCol_eq (x1 : IVec Cert.KernelIdeal.S2x1600000 32) :
    Cert.KernelIdeal.Result.dstCol x1 = Cert.ReferenceIdeal.Read.val_main_v12 (F := Ideal) x1 := rfl

/-- From memories agreeing on the arguments both programs run, and the reference's result is the kernel's: entry by
    entry the aggregate-first layer against the project-first one, of real features and weights. -/
theorem algebraic : Cert.algebraic_KernelIdeal_ReferenceIdeal := by
  intro m ρ m' ρ' hpre hagree
  refine ⟨fun c => Cert.KernelIdeal.Gen.W4 m ρ c (Proc.devRef .tc Cert.KernelIdeal.main_v16),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v19_eq, (hagree c).1, (hagree c).2.1, (hagree c).2.2.1, (hagree c).2.2.2]
  obtain ⟨hx, hW⟩ := Cert.Finite.entries_real _ _ _ _ (hpre c)
  refine funext (fun (i : Cert.KernelIdeal.S100000x32.Idx) => ?_)
  obtain ⟨n, q, rfl⟩ : ∃ (n : Fin 100000) (q : Fin 32), i = ix2 n q := ⟨i 0, i 1, eq_ix2 i⟩
  refine (Cert.ReferenceIdeal.AtEntry.result_apply _ _ _ _ n q).trans ?_
  refine Eq.trans ?_ (Cert.KernelIdeal.Result.result_apply m ρ c n q).symm
  rw [srcCol_eq, dstCol_eq]
  exact Cert.Layer.aggregateFirst_eq_projectFirst _ _ _ _ _ hx hW n q

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
